-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x3 : Shape := ⟨2, ![524288, 3]⟩
abbrev S500000x3 : Shape := ⟨2, ![500000, 3]⟩
abbrev S500000x32 : Shape := ⟨2, ![500000, 32]⟩
abbrev S524288x8 : Shape := ⟨2, ![524288, 8]⟩
abbrev S_ : Shape := ⟨0, ![]⟩

class Facts : Prop where
  bcast_S_S524288x3 : S_.BroadcastsInDim S524288x3 (![] : Fin 0 → Fin S524288x3.rank)
  reducesTo_S524288x3_S_d0_1 : S524288x3.ReducesTo [0, 1] S_
  h_S_ : 0 < S_.numel
  bcast_S_S500000x3 : S_.BroadcastsInDim S500000x3 (![] : Fin 0 → Fin S500000x3.rank)
  reducesTo_S500000x3_S_d0_1 : S500000x3.ReducesTo [0, 1] S_
  bcast_S_S500000x32 : S_.BroadcastsInDim S500000x32 (![] : Fin 0 → Fin S500000x32.rank)
  reducesTo_S500000x32_S_d0_1 : S500000x32.ReducesTo [0, 1] S_

variable [Facts]

def fn_part1 {F : FTy → Type} [FloatOps F] (main_v13 : IVec S_ 1) (main_v16 : IVec S500000x32 1) : IVec S_ 1 :=
  let main_c_5 : IVec S_ 1 := constantI S_ 1 1#1
  let main_v17 : IVec S_ 1 := (fun x v => Host.reduce IntOp.andi x v reducesTo_S500000x32_S_d0_1 h_S_) main_v16 main_c_5
  let main_v18 : IVec S_ 1 := andi main_v13 main_v17
  main_v18

def fn {F : FTy → Type} [FloatOps F] (main_arg0 : FVec F S524288x3 .f32) (main_arg1 : FVec F S500000x3 .f32) (main_arg2 : FVec F S500000x3 .f32) (main_arg3 : FVec F S500000x32 .f32) (main_arg4 : IVec S524288x8 32) : IVec S_ 1 :=
  let main_v0 : FVec F S524288x3 .f32 := Host.absf main_arg0
  let main_cst : FVec F S_ .f32 := constant S_ .f32 0x7F800000#32
  let main_v1 : FVec F S524288x3 .f32 := broadcastInDim S524288x3 ![] bcast_S_S524288x3 main_cst
  let main_v2 : IVec S524288x3 1 := cmpf .olt main_v0 main_v1
  let main_c : IVec S_ 1 := constantI S_ 1 1#1
  let main_v3 : IVec S_ 1 := (fun x v => Host.reduce IntOp.andi x v reducesTo_S524288x3_S_d0_1 h_S_) main_v2 main_c
  let main_v4 : FVec F S500000x3 .f32 := Host.absf main_arg1
  let main_cst_0 : FVec F S_ .f32 := constant S_ .f32 0x7F800000#32
  let main_v5 : FVec F S500000x3 .f32 := broadcastInDim S500000x3 ![] bcast_S_S500000x3 main_cst_0
  let main_v6 : IVec S500000x3 1 := cmpf .olt main_v4 main_v5
  let main_c_1 : IVec S_ 1 := constantI S_ 1 1#1
  let main_v7 : IVec S_ 1 := (fun x v => Host.reduce IntOp.andi x v reducesTo_S500000x3_S_d0_1 h_S_) main_v6 main_c_1
  let main_v8 : IVec S_ 1 := andi main_v3 main_v7
  let main_v9 : FVec F S500000x3 .f32 := Host.absf main_arg2
  let main_cst_2 : FVec F S_ .f32 := constant S_ .f32 0x7F800000#32
  let main_v10 : FVec F S500000x3 .f32 := broadcastInDim S500000x3 ![] bcast_S_S500000x3 main_cst_2
  let main_v11 : IVec S500000x3 1 := cmpf .olt main_v9 main_v10
  let main_c_3 : IVec S_ 1 := constantI S_ 1 1#1
  let main_v12 : IVec S_ 1 := (fun x v => Host.reduce IntOp.andi x v reducesTo_S500000x3_S_d0_1 h_S_) main_v11 main_c_3
  let main_v13 : IVec S_ 1 := andi main_v8 main_v12
  let main_v14 : FVec F S500000x32 .f32 := Host.absf main_arg3
  let main_cst_4 : FVec F S_ .f32 := constant S_ .f32 0x7F800000#32
  let main_v15 : FVec F S500000x32 .f32 := broadcastInDim S500000x32 ![] bcast_S_S500000x32 main_cst_4
  let main_v16 : IVec S500000x32 1 := cmpf .olt main_v14 main_v15
  fn_part1 (F := F) main_v13 main_v16
-- ==== Kernel.lean ====
abbrev S524288x3 : Shape := ⟨2, ![524288, 3]⟩
abbrev S500000x3 : Shape := ⟨2, ![500000, 3]⟩
abbrev S500000x32 : Shape := ⟨2, ![500000, 32]⟩
abbrev S524288x8 : Shape := ⟨2, ![524288, 8]⟩
abbrev S_ : Shape := ⟨0, ![]⟩
abbrev S500000x6 : Shape := ⟨2, ![500000, 6]⟩
abbrev S524288x8x1 : Shape := ⟨3, ![524288, 8, 1]⟩
abbrev S524288x8x6 : Shape := ⟨3, ![524288, 8, 6]⟩
abbrev S524288x8x3 : Shape := ⟨3, ![524288, 8, 3]⟩
abbrev S524288x1x3 : Shape := ⟨3, ![524288, 1, 3]⟩
abbrev S524288x8x32 : Shape := ⟨3, ![524288, 8, 32]⟩
abbrev S524288x32 : Shape := ⟨2, ![524288, 32]⟩
abbrev S2048x8x32 : Shape := ⟨3, ![2048, 8, 32]⟩
abbrev S2048x8 : Shape := ⟨2, ![2048, 8]⟩
abbrev S2048x32 : Shape := ⟨2, ![2048, 32]⟩
abbrev S2048x8x1 : Shape := ⟨3, ![2048, 8, 1]⟩

abbrev nBuf : Space → Nat
  | .hbm => 43
  | .vmem => 6
  | .smem => 0
  | _ => 0

abbrev bufTy : (tb : Table) → Fin (tcTables nBuf tb) → BufTy
  | .hbm, ⟨0, _⟩ => ⟨S524288x3, .f32⟩
  | .hbm, ⟨1, _⟩ => ⟨S500000x3, .f32⟩
  | .hbm, ⟨2, _⟩ => ⟨S500000x3, .f32⟩
  | .hbm, ⟨3, _⟩ => ⟨S500000x32, .f32⟩
  | .hbm, ⟨4, _⟩ => ⟨S524288x8, .i32⟩
  | .hbm, ⟨5, _⟩ => ⟨S_, .i32⟩
  | .hbm, ⟨6, _⟩ => ⟨S524288x8, .i32⟩
  | .hbm, ⟨7, _⟩ => ⟨S524288x8, .i1⟩
  | .hbm, ⟨8, _⟩ => ⟨S500000x3, .f32⟩
  | .hbm, ⟨9, _⟩ => ⟨S500000x3, .f32⟩
  | .hbm, ⟨10, _⟩ => ⟨S500000x6, .f32⟩
  | .hbm, ⟨11, _⟩ => ⟨S_, .i32⟩
  | .hbm, ⟨12, _⟩ => ⟨S524288x8, .i32⟩
  | .hbm, ⟨13, _⟩ => ⟨S524288x8, .i1⟩
  | .hbm, ⟨14, _⟩ => ⟨S_, .i32⟩
  | .hbm, ⟨15, _⟩ => ⟨S524288x8, .i32⟩
  | .hbm, ⟨16, _⟩ => ⟨S524288x8, .i32⟩
  | .hbm, ⟨17, _⟩ => ⟨S524288x8, .i32⟩
  | .hbm, ⟨18, _⟩ => ⟨S524288x8x1, .i32⟩
  | .hbm, ⟨19, _⟩ => ⟨S524288x8x6, .f32⟩
  | .hbm, ⟨20, _⟩ => ⟨S524288x8x3, .f32⟩
  | .hbm, ⟨21, _⟩ => ⟨S524288x8x3, .f32⟩
  | .hbm, ⟨22, _⟩ => ⟨S524288x1x3, .f32⟩
  | .hbm, ⟨23, _⟩ => ⟨S524288x8x3, .f32⟩
  | .hbm, ⟨24, _⟩ => ⟨S524288x8x3, .f32⟩
  | .hbm, ⟨25, _⟩ => ⟨S524288x8x3, .f32⟩
  | .hbm, ⟨26, _⟩ => ⟨S524288x8x3, .f32⟩
  | .hbm, ⟨27, _⟩ => ⟨S_, .f32⟩
  | .hbm, ⟨28, _⟩ => ⟨S524288x8, .f32⟩
  | .hbm, ⟨29, _⟩ => ⟨S_, .f32⟩
  | .hbm, ⟨30, _⟩ => ⟨S_, .f32⟩
  | .hbm, ⟨31, _⟩ => ⟨S524288x8, .f32⟩
  | .hbm, ⟨32, _⟩ => ⟨S524288x8, .f32⟩
  | .hbm, ⟨33, _⟩ => ⟨S_, .i32⟩
  | .hbm, ⟨34, _⟩ => ⟨S524288x8, .i32⟩
  | .hbm, ⟨35, _⟩ => ⟨S524288x8, .i1⟩
  | .hbm, ⟨36, _⟩ => ⟨S_, .i32⟩
  | .hbm, ⟨37, _⟩ => ⟨S524288x8, .i32⟩
  | .hbm, ⟨38, _⟩ => ⟨S524288x8, .i32⟩
  | .hbm, ⟨39, _⟩ => ⟨S524288x8, .i32⟩
  | .hbm, ⟨40, _⟩ => ⟨S524288x8x1, .i32⟩
  | .hbm, ⟨41, _⟩ => ⟨S524288x8x32, .f32⟩
  | .hbm, ⟨42, _⟩ => ⟨S524288x32, .f32⟩
  | .local _ .vmem, ⟨0, _⟩ => ⟨S2048x8x32, .f32⟩
  | .local _ .vmem, ⟨1, _⟩ => ⟨S2048x8x32, .f32⟩
  | .local _ .vmem, ⟨2, _⟩ => ⟨S2048x8, .f32⟩
  | .local _ .vmem, ⟨3, _⟩ => ⟨S2048x8, .f32⟩
  | .local _ .vmem, ⟨4, _⟩ => ⟨S2048x32, .f32⟩
  | .local _ .vmem, ⟨5, _⟩ => ⟨S2048x32, .f32⟩
  | _, _ => ⟨S524288x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x8x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S524288x8 : S_.BroadcastsInDim S524288x8 (![] : Fin 0 → Fin S524288x8.rank)
  concatenates_S500000x3_S500000x3_S500000x6_d1 : Shape.Concatenates [S500000x3, S500000x3] S500000x6 1
  bcast_S524288x8_S524288x8x1_0_1 : S524288x8.BroadcastsInDim S524288x8x1 (![0, 1] : Fin 2 → Fin S524288x8x1.rank)
  slices_S524288x8x6_S524288x8x3_0_0_0 : S524288x8x6.Slices ![0, 0, 0] S524288x8x3
  slices_S524288x8x6_S524288x8x3_0_0_3 : S524288x8x6.Slices ![0, 0, 3] S524288x8x3
  bcast_S524288x3_S524288x1x3_0_2 : S524288x3.BroadcastsInDim S524288x1x3 (![0, 2] : Fin 2 → Fin S524288x1x3.rank)
  bcast_S524288x1x3_S524288x8x3_0_1_2 : S524288x1x3.BroadcastsInDim S524288x8x3 (![0, 1, 2] : Fin 3 → Fin S524288x8x3.rank)
  reducesTo_S524288x8x3_S524288x8_d2 : S524288x8x3.ReducesTo [2] S524288x8
  h_S_ : 0 < S_.numel
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S2048x8x32_S2048x8x32_0_0_0 : ∀ a, (![0, 0, 0] : Fin 3 → Nat) a + S2048x8x32.size a ≤ S2048x8x32.size a
  h_S2048x8x32 : 0 < S2048x8x32.numel
  shapeCasts_S2048x8x32_S2048x8x32 : S2048x8x32.ShapeCasts S2048x8x32
  shapeCasts_S2048x8_S2048x8x1 : S2048x8.ShapeCasts S2048x8x1
  broadcasts_S2048x8x1_S2048x8x32 : S2048x8x1.Broadcasts S2048x8x32
  reduces_S2048x8x32_S2048x32 : S2048x8x32.Reduces [1] S2048x32
  inb_S2048x32_S2048x32_0_0 : ∀ a, (![0, 0] : Fin 2 → Nat) a + S2048x32.size a ≤ S2048x32.size a
  h_S2048x32 : 0 < S2048x32.numel
  gather_S500000x6_S524288x8x1_S524288x8x6_2_0_n_n_0_2_16_wf : GatherDims.WF S500000x6 S524288x8x1 S524288x8x6 [2] [0] [] [0] [] 2 ![1, 6]
  gather_S500000x32_S524288x8x1_S524288x8x32_2_0_n_n_0_2_132_wf : GatherDims.WF S500000x32 S524288x8x1 S524288x8x32 [2] [0] [] [0] [] 2 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x8x32.size a ≤ S524288x8x32.size a
  hwx0_0 : ∀ i : grid0.Coords, EltTy.bits .f32 = 32 ∨ (Rect.block (s := S524288x8x32) S2048x8x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x8.size a ≤ S524288x8.size a
  hwx0_1 : ∀ i : grid0.Coords, EltTy.bits .f32 = 32 ∨ (Rect.block (s := S524288x8) S2048x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S524288x32.size a
  hwx0_2 : ∀ i : grid0.Coords, EltTy.bits .f32 = 32 ∨ (Rect.block (s := S524288x32) S2048x32.size (cc0_transform_2 i) (hinb0_2 i)).WholeWords (EltTy.packing .f32)

variable [Facts₀]

def gather_S500000x6_S524288x8x1_S524288x8x6_2_0_n_n_0_2_16 : GatherDims S500000x6 S524288x8x1 S524288x8x6 where
  offsetDims := [2]
  collapsedSliceDims := [0]
  operandBatchingDims := []
  startIndicesBatchingDims := []
  startIndexMap := [0]
  indexVectorDim := 2
  sliceSizes := ![1, 6]
  wf := gather_S500000x6_S524288x8x1_S524288x8x6_2_0_n_n_0_2_16_wf
def gather_S500000x32_S524288x8x1_S524288x8x32_2_0_n_n_0_2_132 : GatherDims S500000x32 S524288x8x1 S524288x8x32 where
  offsetDims := [2]
  collapsedSliceDims := [0]
  operandBatchingDims := []
  startIndicesBatchingDims := []
  startIndexMap := [0]
  indexVectorDim := 2
  sliceSizes := ![1, 32]
  wf := gather_S500000x32_S524288x8x1_S524288x8x32_2_0_n_n_0_2_132_wf

abbrev win0_0 : Pipeline.Window sig grid0 :=
  Pipeline.Window.ofSpec (Memref.whole main_v27) S2048x8x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2048x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2048x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S524288x3 : Shape := ⟨2, ![524288, 3]⟩
abbrev S500000x3 : Shape := ⟨2, ![500000, 3]⟩
abbrev S500000x32 : Shape := ⟨2, ![500000, 32]⟩
abbrev S524288x8 : Shape := ⟨2, ![524288, 8]⟩
abbrev S_ : Shape := ⟨0, ![]⟩
abbrev S524288x8x1 : Shape := ⟨3, ![524288, 8, 1]⟩
abbrev S524288x8x32 : Shape := ⟨3, ![524288, 8, 32]⟩
abbrev S524288x8x3 : Shape := ⟨3, ![524288, 8, 3]⟩
abbrev S524288x1x3 : Shape := ⟨3, ![524288, 1, 3]⟩
abbrev S524288x32 : Shape := ⟨2, ![524288, 32]⟩

abbrev nBuf : Space → Nat
  | .hbm => 55
  | .vmem => 0
  | .smem => 0
  | _ => 0

abbrev bufTy : (tb : Table) → Fin (tcTables nBuf tb) → BufTy
  | .hbm, ⟨0, _⟩ => ⟨S524288x3, .f32⟩
  | .hbm, ⟨1, _⟩ => ⟨S500000x3, .f32⟩
  | .hbm, ⟨2, _⟩ => ⟨S500000x3, .f32⟩
  | .hbm, ⟨3, _⟩ => ⟨S500000x32, .f32⟩
  | .hbm, ⟨4, _⟩ => ⟨S524288x8, .i32⟩
  | .hbm, ⟨5, _⟩ => ⟨S_, .i32⟩
  | .hbm, ⟨6, _⟩ => ⟨S524288x8, .i32⟩
  | .hbm, ⟨7, _⟩ => ⟨S524288x8, .i1⟩
  | .hbm, ⟨8, _⟩ => ⟨S_, .i32⟩
  | .hbm, ⟨9, _⟩ => ⟨S524288x8, .i32⟩
  | .hbm, ⟨10, _⟩ => ⟨S524288x8, .i32⟩
  | .hbm, ⟨11, _⟩ => ⟨S524288x8, .i32⟩
  | .hbm, ⟨12, _⟩ => ⟨S524288x8x1, .i32⟩
  | .hbm, ⟨13, _⟩ => ⟨S524288x8x32, .f32⟩
  | .hbm, ⟨14, _⟩ => ⟨S_, .i32⟩
  | .hbm, ⟨15, _⟩ => ⟨S524288x8, .i32⟩
  | .hbm, ⟨16, _⟩ => ⟨S524288x8, .i1⟩
  | .hbm, ⟨17, _⟩ => ⟨S_, .i32⟩
  | .hbm, ⟨18, _⟩ => ⟨S524288x8, .i32⟩
  | .hbm, ⟨19, _⟩ => ⟨S524288x8, .i32⟩
  | .hbm, ⟨20, _⟩ => ⟨S524288x8, .i32⟩
  | .hbm, ⟨21, _⟩ => ⟨S524288x8x1, .i32⟩
  | .hbm, ⟨22, _⟩ => ⟨S524288x8x3, .f32⟩
  | .hbm, ⟨23, _⟩ => ⟨S524288x8x3, .f32⟩
  | .hbm, ⟨24, _⟩ => ⟨S524288x1x3, .f32⟩
  | .hbm, ⟨25, _⟩ => ⟨S_, .i32⟩
  | .hbm, ⟨26, _⟩ => ⟨S524288x8, .i32⟩
  | .hbm, ⟨27, _⟩ => ⟨S524288x8, .i1⟩
  | .hbm, ⟨28, _⟩ => ⟨S_, .i32⟩
  | .hbm, ⟨29, _⟩ => ⟨S524288x8, .i32⟩
  | .hbm, ⟨30, _⟩ => ⟨S524288x8, .i32⟩
  | .hbm, ⟨31, _⟩ => ⟨S524288x8, .i32⟩
  | .hbm, ⟨32, _⟩ => ⟨S524288x8x1, .i32⟩
  | .hbm, ⟨33, _⟩ => ⟨S524288x8x3, .f32⟩
  | .hbm, ⟨34, _⟩ => ⟨S524288x8x3, .f32⟩
  | .hbm, ⟨35, _⟩ => ⟨S524288x8x3, .f32⟩
  | .hbm, ⟨36, _⟩ => ⟨S524288x8x3, .f32⟩
  | .hbm, ⟨37, _⟩ => ⟨S524288x8x3, .f32⟩
  | .hbm, ⟨38, _⟩ => ⟨S_, .f32⟩
  | .hbm, ⟨39, _⟩ => ⟨S524288x8, .f32⟩
  | .hbm, ⟨40, _⟩ => ⟨S_, .f32⟩
  | .hbm, ⟨41, _⟩ => ⟨S524288x8, .f32⟩
  | .hbm, ⟨42, _⟩ => ⟨S524288x8, .f32⟩
  | .hbm, ⟨43, _⟩ => ⟨S524288x8, .f32⟩
  | .hbm, ⟨44, _⟩ => ⟨S_, .i32⟩
  | .hbm, ⟨45, _⟩ => ⟨S524288x8, .i32⟩
  | .hbm, ⟨46, _⟩ => ⟨S524288x8, .i1⟩
  | .hbm, ⟨47, _⟩ => ⟨S_, .f32⟩
  | .hbm, ⟨48, _⟩ => ⟨S524288x8, .f32⟩
  | .hbm, ⟨49, _⟩ => ⟨S524288x8, .f32⟩
  | .hbm, ⟨50, _⟩ => ⟨S524288x8x1, .f32⟩
  | .hbm, ⟨51, _⟩ => ⟨S524288x8x32, .f32⟩
  | .hbm, ⟨52, _⟩ => ⟨S524288x8x32, .f32⟩
  | .hbm, ⟨53, _⟩ => ⟨S_, .f32⟩
  | .hbm, ⟨54, _⟩ => ⟨S524288x32, .f32⟩
  | _, _ => ⟨S524288x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  bcast_S_S524288x8 : S_.BroadcastsInDim S524288x8 (![] : Fin 0 → Fin S524288x8.rank)
  bcast_S524288x8_S524288x8x1_0_1 : S524288x8.BroadcastsInDim S524288x8x1 (![0, 1] : Fin 2 → Fin S524288x8x1.rank)
  bcast_S524288x3_S524288x1x3_0_2 : S524288x3.BroadcastsInDim S524288x1x3 (![0, 2] : Fin 2 → Fin S524288x1x3.rank)
  bcast_S524288x1x3_S524288x8x3_0_1_2 : S524288x1x3.BroadcastsInDim S524288x8x3 (![0, 1, 2] : Fin 3 → Fin S524288x8x3.rank)
  reducesTo_S524288x8x3_S524288x8_d2 : S524288x8x3.ReducesTo [2] S524288x8
  h_S_ : 0 < S_.numel
  bcast_S524288x8x1_S524288x8x32_0_1_2 : S524288x8x1.BroadcastsInDim S524288x8x32 (![0, 1, 2] : Fin 3 → Fin S524288x8x32.rank)
  reducesTo_S524288x8x32_S524288x32_d1 : S524288x8x32.ReducesTo [1] S524288x32
  gather_S500000x32_S524288x8x1_S524288x8x32_2_0_n_n_0_2_132_wf : GatherDims.WF S500000x32 S524288x8x1 S524288x8x32 [2] [0] [] [0] [] 2 ![1, 32]
  gather_S500000x3_S524288x8x1_S524288x8x3_2_0_n_n_0_2_13_wf : GatherDims.WF S500000x3 S524288x8x1 S524288x8x3 [2] [0] [] [0] [] 2 ![1, 3]

variable [Facts₀]

def gather_S500000x32_S524288x8x1_S524288x8x32_2_0_n_n_0_2_132 : GatherDims S500000x32 S524288x8x1 S524288x8x32 where
  offsetDims := [2]
  collapsedSliceDims := [0]
  operandBatchingDims := []
  startIndicesBatchingDims := []
  startIndexMap := [0]
  indexVectorDim := 2
  sliceSizes := ![1, 32]
  wf := gather_S500000x32_S524288x8x1_S524288x8x32_2_0_n_n_0_2_132_wf
def gather_S500000x3_S524288x8x1_S524288x8x3_2_0_n_n_0_2_13 : GatherDims S500000x3 S524288x8x1 S524288x8x3 where
  offsetDims := [2]
  collapsedSliceDims := [0]
  operandBatchingDims := []
  startIndicesBatchingDims := []
  startIndexMap := [0]
  indexVectorDim := 2
  sliceSizes := ![1, 3]
  wf := gather_S500000x3_S524288x8x1_S524288x8x3_2_0_n_n_0_2_13_wf

class Facts : Prop extends Facts₀ where

variable [Facts]
-- ==== Proof.HostStages.lean ====
/-
  What the two staged arrays hold when the kernel's region is entered.

  Before the region the program computes, from the five argument arrays: the packed table `[means | exp(-log_covs)]`
  (500000 rows of six); the neighbour indices normalised (a negative index has 500000 added) and recast `[N, 8, 1]`;
  the table's rows gathered at them (`[N, 8, 6]`), cut into the means part (columns 0–2) and the inverse-covariance part
  (columns 3–5); the difference of each query point to each gathered mean, squared, times the inverse covariance,
  summed over the three coordinates (`[N, 8]`); that distance masked to `+∞` where the index is the sentinel `-1`; and
  the feature rows gathered at the same indices (`[N, 8, 32]`). The region stages the last two.
  Each stage is named here as a function of the argument arrays, and the region-entry contents of the two staged
  buffers are shown to be those functions of the arguments as launched.
-/
import proofs.«104667_j52355651338845_2_alg».proof.Proof.Gen.KernelIdeal.Frame
import Idealize.ShloMosaic.Lib.StableHlo.Run

noncomputable section

namespace Cert.KernelIdeal.HostStages

open Cert.KernelIdeal Cert.KernelIdeal.Gen Idealize.ShloMosaic Idealize.ShloMosaic.TcCoe Idealize.SL.Sem
open Idealize.ShloMosaic.StableHlo

variable {F : FTy → Type} [FloatOps F]

/-- The packed table: the means beside the inverse covariances `exp(-log_cov)`. -/
def table (x1 x2 : (⟨S500000x3, .f32⟩ : BufTy).Contents (Elt F)) : (⟨S500000x6, .f32⟩ : BufTy).Contents (Elt F) :=
  concatenate S500000x6 1 [⟨S500000x3, x1⟩, ⟨S500000x3, Host.exp (Host.negf x2)⟩] concatenates_S500000x3_S500000x3_S500000x6_d1

/-- The neighbour indices normalised (a negative one has the table's length added), as start indices `[N, 8, 1]`. -/
def starts (x4 : (⟨S524288x8, .i32⟩ : BufTy).Contents (Elt F)) : (⟨S524288x8x1, .i32⟩ : BufTy).Contents (Elt F) :=
  broadcastInDim S524288x8x1 ![0, 1] bcast_S524288x8_S524288x8x1_0_1
    (select (cmpi .slt x4 (broadcastInDim S524288x8 ![] bcast_S_S524288x8 (constantI S_ 32 0#32)))
      (addi x4 (broadcastInDim S524288x8 ![] bcast_S_S524288x8 (constantI S_ 32 500000#32))) x4)

/-- The table's rows gathered at the neighbour indices. -/
def rows (x1 x2 : (⟨S500000x3, .f32⟩ : BufTy).Contents (Elt F)) (x4 : (⟨S524288x8, .i32⟩ : BufTy).Contents (Elt F)) :
    (⟨S524288x8x6, .f32⟩ : BufTy).Contents (Elt F) :=
  Host.gather gather_S500000x6_S524288x8x1_S524288x8x6_2_0_n_n_0_2_16 (table x1 x2) (starts (F := F) x4)

/-- Each query point minus each gathered mean. -/
def diff (x0 : (⟨S524288x3, .f32⟩ : BufTy).Contents (Elt F)) (x1 x2 : (⟨S500000x3, .f32⟩ : BufTy).Contents (Elt F))
    (x4 : (⟨S524288x8, .i32⟩ : BufTy).Contents (Elt F)) : (⟨S524288x8x3, .f32⟩ : BufTy).Contents (Elt F) :=
  subf (broadcastInDim S524288x8x3 ![0, 1, 2] bcast_S524288x1x3_S524288x8x3_0_1_2
      (broadcastInDim S524288x1x3 ![0, 2] bcast_S524288x3_S524288x1x3_0_2 x0))
    (extractStridedSlice S524288x8x3 ![0, 0, 0] (rows x1 x2 x4) slices_S524288x8x6_S524288x8x3_0_0_0)

/-- The squared distance: the squared differences times the gathered inverse covariances, summed over the coordinates. -/
def dist (x0 : (⟨S524288x3, .f32⟩ : BufTy).Contents (Elt F)) (x1 x2 : (⟨S500000x3, .f32⟩ : BufTy).Contents (Elt F))
    (x4 : (⟨S524288x8, .i32⟩ : BufTy).Contents (Elt F)) : (⟨S524288x8, .f32⟩ : BufTy).Contents (Elt F) :=
  Host.reduceAdd
    (mulf (mulf (diff x0 x1 x2 x4) (diff x0 x1 x2 x4))
      (extractStridedSlice S524288x8x3 ![0, 0, 3] (rows x1 x2 x4) slices_S524288x8x6_S524288x8x3_0_0_3))
    (constant S_ .f32 0x00000000#32) reducesTo_S524288x8x3_S524288x8_d2 h_S_

/-- The distance, `+∞` where the neighbour index is the sentinel `-1`: window 1's array. -/
def masked (x0 : (⟨S524288x3, .f32⟩ : BufTy).Contents (Elt F)) (x1 x2 : (⟨S500000x3, .f32⟩ : BufTy).Contents (Elt F))
    (x4 : (⟨S524288x8, .i32⟩ : BufTy).Contents (Elt F)) : (⟨S524288x8, .f32⟩ : BufTy).Contents (Elt F) :=
  select (cmpi .ne x4 (broadcastInDim S524288x8 ![] bcast_S_S524288x8 (constantI S_ 32 4294967295#32)))
    (dist x0 x1 x2 x4)
    (broadcastInDim S524288x8 ![] bcast_S_S524288x8 (id (constant S_ .f32 0x7F800000#32)))

/-- The feature rows gathered at the neighbour indices: window 0's array. -/
def feats (x3 : (⟨S500000x32, .f32⟩ : BufTy).Contents (Elt F)) (x4 : (⟨S524288x8, .i32⟩ : BufTy).Contents (Elt F)) :
    (⟨S524288x8x32, .f32⟩ : BufTy).Contents (Elt F) :=
  Host.gather gather_S500000x32_S524288x8x1_S524288x8x32_2_0_n_n_0_2_132 x3 (starts (F := F) x4)

variable (m : (ℓ : Loc nD τ sig) → Buf (Elt F) ℓ)

set_option maxHeartbeats 4000000 in
/-- Window 0's array at region entry is the gathered feature rows of the arguments as launched. -/
theorem V_main_v27 (c : Dev nD) :
    V m c main_v27 = feats (m ((c : Thread nD τ).loc main_arg3)) (m ((c : Thread nD τ).loc main_arg4)) := by
  dsimp only [Gen.V]
  simp only [Gen.hostOps0, Gen.hostOps0_1, Gen.hostOps0_2, List.flatten_cons, List.flatten_nil, List.append_nil,
    List.cons_append, List.nil_append]
  after_results_simp
  rfl

set_option maxHeartbeats 4000000 in
/-- Window 1's array at region entry is the masked distance of the arguments as launched. -/
theorem V_main_v20 (c : Dev nD) :
    V m c main_v20 = masked (m ((c : Thread nD τ).loc main_arg0)) (m ((c : Thread nD τ).loc main_arg1))
      (m ((c : Thread nD τ).loc main_arg2)) (m ((c : Thread nD τ).loc main_arg4)) := by
  dsimp only [Gen.V]
  simp only [Gen.hostOps0, Gen.hostOps0_1, Gen.hostOps0_2, List.flatten_cons, List.flatten_nil, List.append_nil,
    List.cons_append, List.nil_append]
  after_results_simp
  rfl

end Cert.KernelIdeal.HostStages

end
-- ==== Proof.Spec.lean ====
/-
  The Gaussian-weighted neighbour sum, as one function of the five argument arrays.

  For query `n` and neighbour slot `k` the index `idx[n, k]` names a row of the three tables (a negative index
  counted from the end, the result clamped into the table). The squared Mahalanobis distance of the query point to
  that row's mean, with diagonal covariance `exp(log_cov)`, is `Σ_d (coords[n,d] - means[row,d])² / exp(log_cov[row,d])`;
  the neighbour's weight is `exp(-½ · distance)`, or zero when the index is the sentinel `-1`; and the result at
  `(n, f)` is `Σ_k feats[row, f] · weight`.

  Two spellings of the distance and of the weight are compared here, on the extended reals:
  * dividing by `exp(c)` against multiplying by `exp(-c)` — equal when `c` is a real number, because then
    `exp(-c) = (exp c)⁻¹` is a real and the extended-real quotient by a nonzero real is the product with its inverse;
  * masking the distance to `+∞` before the exponential against masking the weight to `0` after it — equal always,
    because `-½ · (+∞) = -∞` and `exp(-∞) = 0`.
-/
import Idealize.ShloMosaic.PureOps.Ideal
import Idealize.ShloMosaic.PureOps.Ideal.Laws
import Idealize.ShloMosaic.Lib.ValueIdx

noncomputable section

open scoped BigOperators

namespace Cert.GaussSum

open Idealize.ShloMosaic Idealize.ShloMosaic.ValueIdx

/-! ## The float patterns the two programs spell -/

/-- The pattern of `-0.5` denotes the real `-1/2`. -/
theorem ofBits_neg_half : Ideal.ofBits .f32 0xBF000000#32 = ((-(1 / 2) : ℝ) : EReal) := by
  simp [Ideal.ofBits, Ideal.ieee, -EReal.coe_mul]; norm_num

/-- The pattern of `+inf` denotes `⊤`. -/
theorem ofBits_inf : Ideal.ofBits .f32 0x7F800000#32 = (⊤ : EReal) := by
  simp [Ideal.ofBits, Ideal.ieee]

/-! ## The two spellings of one term of the distance, and of the weight -/

/-- Multiplying by `exp(-c)` is dividing by `exp(c)`, for a REAL `c` and any extended real `a`. -/
theorem mul_exp_neg (a : EReal) (c : ℝ) :
    a * Ideal.exp (-(c : EReal)) = Ideal.div a (Ideal.exp (c : EReal)) := by
  rw [← EReal.coe_neg, Ideal.exp_coe, Ideal.exp_coe, Ideal.div_coe (Real.exp_pos c).ne', one_div, Real.exp_neg]

/-- Masking the distance to `+∞` before `exp(-½ ·)` is masking the weight to `0` after it. -/
theorem exp_mask (v : BitVec 1) (md : EReal) :
    Ideal.exp (Ideal.ofBits .f32 0xBF000000#32 * Scalar.select v md (Ideal.ofBits .f32 0x7F800000#32))
      = Scalar.select v (Ideal.exp (Ideal.ofBits .f32 0xBF000000#32 * md)) (Ideal.ofBits .f32 0x00000000#32) := by
  rcases BitVec.eq_zero_or_eq_one v with rfl | rfl
  · rw [select_zero, select_zero, ofBits_inf, ofBits_neg_half, Ideal.ofBits_zero_f32,
      EReal.coe_mul_top_of_neg (by norm_num), Ideal.exp_bot]
  · rw [select_one, select_one]

/-! ## The shapes, the row an index names, and the result -/

abbrev SQ3 : Shape := ⟨2, ![524288, 3]⟩
abbrev SG3 : Shape := ⟨2, ![500000, 3]⟩
abbrev SG32 : Shape := ⟨2, ![500000, 32]⟩
abbrev SQ8 : Shape := ⟨2, ![524288, 8]⟩
abbrev SQ32 : Shape := ⟨2, ![524288, 32]⟩

/-- A neighbour index as the gathers normalise it: a negative index has the table's length added. -/
def wrap (a : BitVec 32) : BitVec 32 :=
  Scalar.select (IntOp.cmpi .slt a 0#32) (IntOp.addi a 500000#32) a

/-- The table row that `idx[n, k]` names: the normalised index read signed and clamped into `[0, 499999]`. -/
def row (x4 : SQ8.Idx → BitVec 32) (n : Fin 524288) (k : Fin 8) : Fin 500000 :=
  ⟨min (wrap (x4 (ix2 n k))).toInt.toNat (500000 - 1), by omega⟩

/-- The neighbour is a real one: its index is not the sentinel `-1`. -/
def valid (x4 : SQ8.Idx → BitVec 32) (n : Fin 524288) (k : Fin 8) : BitVec 1 :=
  IntOp.cmpi .ne (x4 (ix2 n k)) 4294967295#32

/-- The squared distance of query `n` to row `r`, dividing by the covariance `exp(log_cov)`. -/
def distDiv (x0 : SQ3.Idx → EReal) (x1 x2 : SG3.Idx → EReal) (n : Fin 524288) (r : Fin 500000) : EReal :=
  Ideal.ofBits .f32 0x00000000#32 + ∑ d : Fin 3,
    Ideal.div ((x0 (ix2 n d) - x1 (ix2 r d)) * (x0 (ix2 n d) - x1 (ix2 r d))) (Ideal.exp (x2 (ix2 r d)))

/-- The same, multiplying by the inverse covariance `exp(-log_cov)`. -/
def distMul (x0 : SQ3.Idx → EReal) (x1 x2 : SG3.Idx → EReal) (n : Fin 524288) (r : Fin 500000) : EReal :=
  Ideal.ofBits .f32 0x00000000#32 + ∑ d : Fin 3,
    (x0 (ix2 n d) - x1 (ix2 r d)) * (x0 (ix2 n d) - x1 (ix2 r d)) * Ideal.exp (-(x2 (ix2 r d)))

/-- The two distances agree on a row whose log-covariances are real numbers. -/
theorem distMul_eq_distDiv (x0 : SQ3.Idx → EReal) (x1 x2 : SG3.Idx → EReal) (n : Fin 524288) (r : Fin 500000)
    (h : ∀ d : Fin 3, ∃ c : ℝ, x2 (ix2 r d) = (c : EReal)) :
    distMul x0 x1 x2 n r = distDiv x0 x1 x2 n r := by
  unfold distMul distDiv
  refine congrArg (_ + ·) (Finset.sum_congr rfl fun d _ => ?_)
  obtain ⟨c, hc⟩ := h d
  rw [hc, mul_exp_neg]

/-- THE RESULT at `(n, f)`: the sum over the eight neighbour slots of the feature `f` of the slot's row times the
    slot's weight — `exp(-½ · distance)`, zero for the sentinel. -/
def GAt (x0 : SQ3.Idx → EReal) (x1 x2 : SG3.Idx → EReal) (x3 : SG32.Idx → EReal) (x4 : SQ8.Idx → BitVec 32)
    (n : Fin 524288) (f : Fin 32) : EReal :=
  Ideal.ofBits .f32 0x00000000#32 + ∑ k : Fin 8,
    x3 (ix2 (row x4 n k) f) *
      Scalar.select (valid x4 n k)
        (Ideal.exp (Ideal.ofBits .f32 0xBF000000#32 * distDiv x0 x1 x2 n (row x4 n k)))
        (Ideal.ofBits .f32 0x00000000#32)

/-- The same with the mask applied to the distance, and the distance spelt with the inverse covariance. -/
def GMulAt (x0 : SQ3.Idx → EReal) (x1 x2 : SG3.Idx → EReal) (x3 : SG32.Idx → EReal) (x4 : SQ8.Idx → BitVec 32)
    (n : Fin 524288) (f : Fin 32) : EReal :=
  Ideal.ofBits .f32 0x00000000#32 + ∑ k : Fin 8,
    x3 (ix2 (row x4 n k) f) *
      Ideal.exp (Ideal.ofBits .f32 0xBF000000#32 *
        Scalar.select (valid x4 n k) (distMul x0 x1 x2 n (row x4 n k)) (Ideal.ofBits .f32 0x7F800000#32))

/-- The two spellings agree when every log-covariance is a real number. -/
theorem GMulAt_eq_GAt (x0 : SQ3.Idx → EReal) (x1 x2 : SG3.Idx → EReal) (x3 : SG32.Idx → EReal)
    (x4 : SQ8.Idx → BitVec 32) (h : ∀ j : SG3.Idx, ∃ c : ℝ, x2 j = (c : EReal)) (n : Fin 524288) (f : Fin 32) :
    GMulAt x0 x1 x2 x3 x4 n f = GAt x0 x1 x2 x3 x4 n f := by
  unfold GMulAt GAt
  refine congrArg (_ + ·) (Finset.sum_congr rfl fun k _ => ?_)
  rw [exp_mask, distMul_eq_distDiv x0 x1 x2 n (row x4 n k) (fun d => h _)]

/-- The result array: `GAt` at the index's two coordinates. -/
def G (x0 : SQ3.Idx → EReal) (x1 x2 : SG3.Idx → EReal) (x3 : SG32.Idx → EReal) (x4 : SQ8.Idx → BitVec 32) :
    SQ32.Idx → EReal := fun i => GAt x0 x1 x2 x3 x4 (i 0) (i 1)

end Cert.GaussSum

end
-- ==== Proof.LibGatherRows.lean ====
/-
  A row gather read at an index.

  `table[idx]` of a rank-2 table `[N, W]` at an integer array `idx : [R, C]` is `stablehlo.gather` with
  offset_dims `[2]`, collapsed_slice_dims `[0]`, start_index_map `[0]`, index_vector_dim `2` and slice sizes
  `[1, W]` over the indices as `[R, C, 1]`: result element `(t, j, f)` is the table's entry in column `f` of the row
  whose number is the start index `idx[t, j, 0]`, read as a signed integer and clamped into `[0, N - 1]`.
-/
import Idealize.ShloMosaic.Lib.ValueIdx

noncomputable section

namespace Idealize.ShloMosaic.GatherRows

open Idealize.ShloMosaic Idealize.ShloMosaic.ValueIdx

variable {α : Type}

/-- The dimension numbers of a row gather: operand `[N, W]`, start indices `[R, C, 1]`, result `[R, C, W]`. -/
abbrev rowsDims (N W R C : Nat)
    (wf : GatherDims.WF ⟨2, ![N, W]⟩ ⟨3, ![R, C, 1]⟩ ⟨3, ![R, C, W]⟩ [2] [0] [] [0] [] 2 ![1, W]) :
    GatherDims ⟨2, ![N, W]⟩ ⟨3, ![R, C, 1]⟩ ⟨3, ![R, C, W]⟩ where
  offsetDims := [2]
  collapsedSliceDims := [0]
  operandBatchingDims := []
  startIndicesBatchingDims := []
  startIndexMap := [0]
  indexVectorDim := 2
  sliceSizes := ![1, W]
  wf := wf

/-- The start-indices index `[t, j, 0]` that result index `(t, j, f)` reads its row number from. -/
abbrev rowsIdx {R C W : Nat} (y : (⟨3, ![R, C, W]⟩ : Shape).Idx) : (⟨3, ![R, C, 1]⟩ : Shape).Idx :=
  fun a => match a with
    | ⟨0, _⟩ => ⟨(y 0).val, (y 0).isLt⟩
    | ⟨1, _⟩ => ⟨(y 1).val, (y 1).isLt⟩
    | ⟨2, _⟩ => ⟨0, Nat.one_pos⟩

/-- THE ROW GATHER READ AT `(t, j, f)`: column `f` of the table's row numbered by the start index `idx[t, j, 0]`,
    read signed and clamped into `[0, N - 1]`. -/
theorem gather_rows_apply {N W R C w : Nat} (hN : 0 < N)
    (wf : GatherDims.WF ⟨2, ![N, W]⟩ ⟨3, ![R, C, 1]⟩ ⟨3, ![R, C, W]⟩ [2] [0] [] [0] [] 2 ![1, W])
    (x : (⟨2, ![N, W]⟩ : Shape).Idx → α) (idx : IVec ⟨3, ![R, C, 1]⟩ w) (y : (⟨3, ![R, C, W]⟩ : Shape).Idx) :
    Host.gather (rowsDims N W R C wf) x idx y
      = x (ix2 ⟨min (idx (rowsIdx y)).toInt.toNat (N - 1), by omega⟩ ⟨(y 2).val, (y 2).isLt⟩) := by
  unfold Host.gather
  congr 1
  funext a
  refine Fin.ext ?_
  match a with
  | ⟨0, _⟩ =>
    show (rowsDims N W R C wf).start y idx 0 + (rowsDims N W R C wf).batchCoord y 0
      + (rowsDims N W R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N W R C wf).startIndexMap from List.mem_singleton.mpr rfl)]
    have hsi : (rowsDims N W R C wf).siIdx y ⟨List.idxOf (0 : Fin 2) (rowsDims N W R C wf).startIndexMap,
        List.idxOf_lt_length_iff.2 (List.mem_singleton.mpr rfl)⟩ = rowsIdx y := by
      funext b; refine Fin.ext ?_
      match b with
      | ⟨0, _⟩ => rfl
      | ⟨1, _⟩ => rfl
      | ⟨2, _⟩ => rfl
    rw [hsi]
    rfl
  | ⟨1, _⟩ =>
    show (rowsDims N W R C wf).start y idx 1 + (rowsDims N W R C wf).batchCoord y 1
      + (rowsDims N W R C wf).offCoord y 1 = (y 2).val
    rw [GatherDims.batchCoord_eq_zero _ _ _ List.not_mem_nil]
    have hs : (rowsDims N W R C wf).start y idx 1 = 0 := by
      unfold GatherDims.start
      rw [dif_neg (show (1 : Fin 2) ∉ [(0 : Fin 2)] by decide)]
    rw [hs]
    simp only [Nat.add_zero, Nat.zero_add]
    unfold GatherDims.offCoord
    rw [dif_pos ((GatherDims.mem_sKept _ _).2 ⟨(show (1 : Fin 2) ∉ [(0 : Fin 2)] by decide), List.not_mem_nil⟩)]
    rfl

/-- The same with the row and the column NAMED: for any `r` whose value is the clamped start index and any `f` whose
    value is the result's last coordinate, the gather at `y` is the table at `(r, f)`. (The caller proves the two
    equations between naturals, where rewriting meets no dependent bound.) -/
theorem gather_rows_apply_of_eq {N W R C w : Nat} (hN : 0 < N)
    (wf : GatherDims.WF ⟨2, ![N, W]⟩ ⟨3, ![R, C, 1]⟩ ⟨3, ![R, C, W]⟩ [2] [0] [] [0] [] 2 ![1, W])
    (x : (⟨2, ![N, W]⟩ : Shape).Idx → α) (idx : IVec ⟨3, ![R, C, 1]⟩ w) (y : (⟨3, ![R, C, W]⟩ : Shape).Idx)
    (r : Fin N) (f : Fin W) (hr : r.val = min (idx (rowsIdx y)).toInt.toNat (N - 1)) (hf : f.val = (y 2).val) :
    Host.gather (rowsDims N W R C wf) x idx y = x (ix2 r f) := by
  rw [gather_rows_apply hN wf x idx y]
  refine congrArg x (funext fun a => Fin.ext ?_)
  match a with
  | ⟨0, _⟩ => exact hr.symm
  | ⟨1, _⟩ => exact hf.symm

end Idealize.ShloMosaic.GatherRows

end
-- ==== Proof.HostRead.lean ====
/-
  The two staged arrays read at an index.

  Window 0's array at `(n, k, f)` is feature `f` of the row that `idx[n, k]` names. Window 1's array at `(n, k)` is the
  squared distance of query `n` to that row — `Σ_d (coords[n,d] - means[row,d])² · exp(-log_cov[row,d])`, the means in
  columns 0–2 and the inverse covariances in columns 3–5 of the packed table's gathered row — or `+∞` at the sentinel.
-/
import proofs.«104667_j52355651338845_2_alg».proof.Proof.HostStages
import proofs.«104667_j52355651338845_2_alg».proof.Proof.Spec
import proofs.«104667_j52355651338845_2_alg».proof.Proof.LibGatherRows
import Idealize.ShloMosaic.Lib.ValueIdx
import Idealize.ShloMosaic.Lib.Pipeline.Value
import Idealize.ShloMosaic.PureOps.Ideal.Laws

noncomputable section

open scoped BigOperators

namespace Cert.KernelIdeal.HostRead

open Cert.KernelIdeal Cert.KernelIdeal.Gen Cert.KernelIdeal.HostStages
open Idealize.ShloMosaic Idealize.ShloMosaic.ValueIdx Idealize.ShloMosaic.GatherRows Cert.GaussSum

/-- Column `d` of the means part of a packed row. -/
abbrev lo (d : Fin 3) : Fin 6 := ⟨d.val, by omega⟩
/-- Column `d` of the inverse-covariance part of a packed row. -/
abbrev hi (d : Fin 3) : Fin 6 := ⟨3 + d.val, by omega⟩

/-! ## The start indices and the feature gather -/

theorem starts_at (x4 : (⟨S524288x8, .i32⟩ : BufTy).Contents (Elt Ideal)) (n : Fin 524288) (k : Fin 8) (u : Fin 1) :
    starts (F := Ideal) x4 (ix3 n k u) = wrap (x4 (ix2 n k)) := by
  unfold starts
  refine (broadcastInDim_apply _ bcast_S524288x8_S524288x8x1_0_1 _ (ix3 n k u) (ix2 n k) (fun a => match a with
    | ⟨0, _⟩ => by show n.val = if (524288 : Nat) = 1 then 0 else n.val; rw [if_neg (by decide)]
    | ⟨1, _⟩ => by show k.val = if (8 : Nat) = 1 then 0 else k.val; rw [if_neg (by decide)])).trans ?_
  rfl

/-- Window 0's array: the named row's feature. -/
theorem feats_at (x3 : (⟨S500000x32, .f32⟩ : BufTy).Contents (Elt Ideal)) (x4 : (⟨S524288x8, .i32⟩ : BufTy).Contents (Elt Ideal))
    (n : Fin 524288) (k : Fin 8) (f : Fin 32) :
    feats (F := Ideal) x3 x4 (ix3 n k f) = x3 (ix2 (row x4 n k) f) := by
  unfold feats
  refine gather_rows_apply_of_eq (N := 500000) (W := 32) (R := 524288) (C := 8) (by decide)
    gather_S500000x32_S524288x8x1_S524288x8x32_2_0_n_n_0_2_132_wf x3 (starts (F := Ideal) x4) (ix3 n k f)
    (row x4 n k) f ?_ rfl
  have e : rowsIdx (ix3 n k f) = ix3 n k (0 : Fin 1) :=
    funext fun a => Fin.ext (by match a with | ⟨0, _⟩ => rfl | ⟨1, _⟩ => rfl | ⟨2, _⟩ => rfl)
  rw [e, starts_at]
  rfl

/-! ## The packed table and its gathered rows -/

theorem table_lo (x1 x2 : (⟨S500000x3, .f32⟩ : BufTy).Contents (Elt Ideal)) (r : Fin 500000) (d : Fin 3) :
    table (F := Ideal) x1 x2 (ix2 r (lo d)) = x1 (ix2 r d) := by
  unfold table
  exact concatenate_pair_apply_left 1 x1 _ concatenates_S500000x3_S500000x3_S500000x6_d1 (ix2 r (lo d)) rfl (ix2 r d)
    (fun b => match b with | ⟨0, _⟩ => rfl | ⟨1, _⟩ => rfl)

theorem table_hi (x1 x2 : (⟨S500000x3, .f32⟩ : BufTy).Contents (Elt Ideal)) (r : Fin 500000) (d : Fin 3) :
    table (F := Ideal) x1 x2 (ix2 r (hi d)) = Ideal.exp (-(x2 (ix2 r d))) := by
  unfold table
  refine (concatenate_pair_apply_right 1 x1 _ concatenates_S500000x3_S500000x3_S500000x6_d1 (ix2 r (hi d)) rfl rfl (ix2 r d)
    (fun b hb => match b, hb with
      | ⟨0, _⟩, _ => rfl
      | ⟨1, _⟩, hb => absurd rfl hb)
    (by show d.val + 3 = 3 + d.val; omega)).trans ?_
  rfl

theorem rows_lo (x1 x2 : (⟨S500000x3, .f32⟩ : BufTy).Contents (Elt Ideal)) (x4 : (⟨S524288x8, .i32⟩ : BufTy).Contents (Elt Ideal))
    (n : Fin 524288) (k : Fin 8) (d : Fin 3) :
    rows (F := Ideal) x1 x2 x4 (ix3 n k (lo d)) = x1 (ix2 (row x4 n k) d) := by
  unfold rows
  refine (gather_rows_apply_of_eq (N := 500000) (W := 6) (R := 524288) (C := 8) (by decide)
    gather_S500000x6_S524288x8x1_S524288x8x6_2_0_n_n_0_2_16_wf (table (F := Ideal) x1 x2) (starts (F := Ideal) x4)
    (ix3 n k (lo d)) (row x4 n k) (lo d) ?_ rfl).trans (table_lo x1 x2 (row x4 n k) d)
  have e : rowsIdx (ix3 n k (lo d)) = ix3 n k (0 : Fin 1) :=
    funext fun a => Fin.ext (by match a with | ⟨0, _⟩ => rfl | ⟨1, _⟩ => rfl | ⟨2, _⟩ => rfl)
  rw [e, starts_at]
  rfl

theorem rows_hi (x1 x2 : (⟨S500000x3, .f32⟩ : BufTy).Contents (Elt Ideal)) (x4 : (⟨S524288x8, .i32⟩ : BufTy).Contents (Elt Ideal))
    (n : Fin 524288) (k : Fin 8) (d : Fin 3) :
    rows (F := Ideal) x1 x2 x4 (ix3 n k (hi d)) = Ideal.exp (-(x2 (ix2 (row x4 n k) d))) := by
  unfold rows
  refine (gather_rows_apply_of_eq (N := 500000) (W := 6) (R := 524288) (C := 8) (by decide)
    gather_S500000x6_S524288x8x1_S524288x8x6_2_0_n_n_0_2_16_wf (table (F := Ideal) x1 x2) (starts (F := Ideal) x4)
    (ix3 n k (hi d)) (row x4 n k) (hi d) ?_ rfl).trans (table_hi x1 x2 (row x4 n k) d)
  have e : rowsIdx (ix3 n k (hi d)) = ix3 n k (0 : Fin 1) :=
    funext fun a => Fin.ext (by match a with | ⟨0, _⟩ => rfl | ⟨1, _⟩ => rfl | ⟨2, _⟩ => rfl)
  rw [e, starts_at]
  rfl

/-! ## The difference, the distance and its mask -/

theorem diff_at (x0 : (⟨S524288x3, .f32⟩ : BufTy).Contents (Elt Ideal)) (x1 x2 : (⟨S500000x3, .f32⟩ : BufTy).Contents (Elt Ideal))
    (x4 : (⟨S524288x8, .i32⟩ : BufTy).Contents (Elt Ideal)) (n : Fin 524288) (k : Fin 8) (d : Fin 3) :
    diff (F := Ideal) x0 x1 x2 x4 (ix3 n k d) = x0 (ix2 n d) - x1 (ix2 (row x4 n k) d) := by
  unfold diff
  rw [subf_apply]
  refine congrArg₂ (· - ·) ?_ ?_
  · refine (broadcastInDim_apply _ bcast_S524288x1x3_S524288x8x3_0_1_2 _ (ix3 n k d) (ix3 n (0 : Fin 1) d) (fun a => match a with
      | ⟨0, _⟩ => by show n.val = if (524288 : Nat) = 1 then 0 else n.val; rw [if_neg (by decide)]
      | ⟨1, _⟩ => by show 0 = if (1 : Nat) = 1 then 0 else k.val; rw [if_pos rfl]
      | ⟨2, _⟩ => by show d.val = if (3 : Nat) = 1 then 0 else d.val; rw [if_neg (by decide)])).trans ?_
    exact broadcastInDim_apply _ bcast_S524288x3_S524288x1x3_0_2 x0 (ix3 n (0 : Fin 1) d) (ix2 n d) (fun a => match a with
      | ⟨0, _⟩ => by show n.val = if (524288 : Nat) = 1 then 0 else n.val; rw [if_neg (by decide)]
      | ⟨1, _⟩ => by show d.val = if (3 : Nat) = 1 then 0 else d.val; rw [if_neg (by decide)])
  · refine (extractStridedSlice_apply ![0, 0, 0] (rows (F := Ideal) x1 x2 x4) slices_S524288x8x6_S524288x8x3_0_0_0
      (ix3 n k d) (ix3 n k (lo d)) (fun a => match a with
        | ⟨0, _⟩ => by show n.val = 0 + n.val; omega
        | ⟨1, _⟩ => by show k.val = 0 + k.val; omega
        | ⟨2, _⟩ => by show d.val = 0 + d.val; omega)).trans ?_
    exact rows_lo x1 x2 x4 n k d

theorem invcov_at (x1 x2 : (⟨S500000x3, .f32⟩ : BufTy).Contents (Elt Ideal)) (x4 : (⟨S524288x8, .i32⟩ : BufTy).Contents (Elt Ideal))
    (n : Fin 524288) (k : Fin 8) (d : Fin 3) :
    extractStridedSlice S524288x8x3 ![0, 0, 3] (rows (F := Ideal) x1 x2 x4) slices_S524288x8x6_S524288x8x3_0_0_3 (ix3 n k d)
      = Ideal.exp (-(x2 (ix2 (row x4 n k) d))) := by
  refine (extractStridedSlice_apply ![0, 0, 3] (rows (F := Ideal) x1 x2 x4) slices_S524288x8x6_S524288x8x3_0_0_3
    (ix3 n k d) (ix3 n k (hi d)) (fun a => match a with
      | ⟨0, _⟩ => by show n.val = 0 + n.val; omega
      | ⟨1, _⟩ => by show k.val = 0 + k.val; omega
      | ⟨2, _⟩ => by show 3 + d.val = 3 + d.val; rfl)).trans ?_
  exact rows_hi x1 x2 x4 n k d

theorem dist_at (x0 : (⟨S524288x3, .f32⟩ : BufTy).Contents (Elt Ideal)) (x1 x2 : (⟨S500000x3, .f32⟩ : BufTy).Contents (Elt Ideal))
    (x4 : (⟨S524288x8, .i32⟩ : BufTy).Contents (Elt Ideal)) (n : Fin 524288) (k : Fin 8) :
    HostStages.dist (F := Ideal) x0 x1 x2 x4 (ix2 n k) = distMul x0 x1 x2 n (row x4 n k) := by
  unfold HostStages.dist distMul
  simp only [Host.reduceAdd, Ideal.hostReduceAdd_def]
  rw [Ideal.hostReduceAdd_single reducesTo_S524288x8x3_S524288x8_d2 (by decide)]
  refine congrArg₂ (· + ·) rfl (Finset.sum_congr rfl fun (d : Fin 3) _ => ?_)
  have e : (by decide : S524288x8x3.Reduces [2] S524288x8).lift (ix2 n k) d = ix3 n k d :=
    funext fun a => Fin.ext (by match a with | ⟨0, _⟩ => rfl | ⟨1, _⟩ => rfl | ⟨2, _⟩ => rfl)
  rw [e, mulf_apply, mulf_apply, diff_at, invcov_at]

/-- Window 1's array: the distance, `+∞` at the sentinel. -/
theorem masked_at (x0 : (⟨S524288x3, .f32⟩ : BufTy).Contents (Elt Ideal)) (x1 x2 : (⟨S500000x3, .f32⟩ : BufTy).Contents (Elt Ideal))
    (x4 : (⟨S524288x8, .i32⟩ : BufTy).Contents (Elt Ideal)) (n : Fin 524288) (k : Fin 8) :
    masked (F := Ideal) x0 x1 x2 x4 (ix2 n k)
      = Scalar.select (valid x4 n k) (distMul x0 x1 x2 n (row x4 n k)) (Ideal.ofBits .f32 0x7F800000#32) := by
  unfold masked
  rw [select_apply, dist_at]
  rfl

end Cert.KernelIdeal.HostRead

end
-- ==== Proof.Payload.lean ====
import proofs.«104667_j52355651338845_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The kernel body's stored value, read at one output element

The body takes a block `d` of squared distances, of shape [2048, 8], and a block `x` of gathered features, of shape
[2048, 8, 32]. It scales `d` by the constant -1/2, exponentiates it, views the result as a column [2048, 8, 1], repeats
that column along the 32 features, multiplies the feature block by it, and sums over the neighbour axis (axis 1) from
a zero accumulator. Read at the output element (p, f) over the extended reals this is

  0 + ∑ k < 8, x (p, k, f) * exp (-1/2 * d (p, k)),

the Gaussian-weighted sum of the eight neighbours' features. Both float constants are kept as their bit patterns.
-/

noncomputable section

open scoped BigOperators

namespace Cert.GaussSum.Payload

open Idealize.ShloMosaic Idealize.ShloMosaic.ValueIdx

/-! ## Two layout operations at an index given by coordinates -/

/-- An `[a, b]` array viewed as the column `[a, b, 1]` reads, at `(i, j, u)`, the operand at `(i, j)`: the two
    row-major positions are `i * b + j` and `(i * b + j) * 1 + u` with `u = 0`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A column `[a, b, 1]` repeated along a last axis of extent `c` reads, at `(i, j, k)`, the column's entry
    `(i, j, 0)`: the last axis of the operand has size one, so its coordinate is `0`; on the two leading axes the
    coordinate is kept (and is `0` anyway when that axis has size one). -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The index over the output element `(p, f)` with the coordinate `k` put back on the summed axis 1 is `(p, k, f)`. -/
theorem lift_axis1 {a b c : ℕ} (h : (⟨3, ![a, b, c]⟩ : Shape).Reduces [1] ⟨2, ![a, c]⟩) (p : Fin a) (k : Fin b)
    (f : Fin c) : h.lift (ix2 p f) k = ix3 p k f := by
  funext ax
  match ax with
  | ⟨0, _⟩ => exact Fin.ext rfl
  | ⟨1, _⟩ => exact Fin.ext rfl
  | ⟨2, _⟩ => exact Fin.ext rfl

/-! ## The stored value at `(p, f)` -/

/-- The body's stored value at the output element `(p, f)`: the zero accumulator plus the sum over the eight
    neighbours `k` of the feature `x (p, k, f)` times the weight `exp (-1/2 * d (p, k))`. -/
theorem pay_apply (v0 : Vec Ideal Cert.KernelIdeal.S2048x8 .f32) (v5 : Vec Ideal Cert.KernelIdeal.S2048x8x32 .f32)
    (p : Fin 2048) (f : Fin 32) :
    Cert.KernelIdeal.Gen.k0_pay1 (F := Ideal) v0 v5 (ix2 p f)
      = Ideal.ofBits .f32 0x00000000#32
        + ∑ k : Fin 8, v5 (ix3 p k f) * Ideal.exp (Ideal.ofBits .f32 0xBF000000#32 * v0 (ix2 p k)) := by
  unfold Cert.KernelIdeal.Gen.k0_pay1
  -- the sum over axis 1, read at (p, f), is the sum over the neighbour coordinate k of the summand at (p, k, f)
  refine (Ideal.multiReduction_add_single _ _ _ _ _ (ix2 p f)).trans ?_
  -- the zero accumulator is the extended real 0
  rw [Ideal.ofBits_zero_f32, zero_add]
  refine Finset.sum_congr rfl fun (k : Fin 8) _ => ?_
  rw [lift_axis1 _ p k f, mulf_apply, shapeCast_self, broadcastTo_ab1_abc_apply _ _ p k f,
    shapeCast_ab_ab1_apply _ _ p k (0 : Fin 1), shapeCast_self]
  rfl

end Cert.GaussSum.Payload

end
-- ==== Proof.Blocks.lean ====
/-
  From blocks to the whole result array.

  Grid point `t` (of 256) works on query rows `2048·t … 2048·t + 2047`: it reads block `t` of the gathered features
  (`[2048, 8, 32]`) and of the masked distances (`[2048, 8]`) and writes block `t` (`[2048, 32]`) of the result. At row
  `p` and feature `f` of the block the body leaves `Σ_k feature(p, k, f) · exp(-½ · distance(p, k))`, which, the two
  input arrays being what the host operations made of the arguments, is the specification's `GMulAt` at query
  `2048·t + p`. The 256 blocks tile the 524288 rows, so the result array is `GMulAt` everywhere.
-/
import proofs.«104667_j52355651338845_2_alg».proof.Proof.Gen.KernelIdeal.Value
import proofs.«104667_j52355651338845_2_alg».proof.Proof.HostRead
import proofs.«104667_j52355651338845_2_alg».proof.Proof.Payload
import proofs.«104667_j52355651338845_2_alg».proof.Proof.Spec

noncomputable section

open scoped BigOperators

namespace Cert.KernelIdeal.Blocks

open Cert.KernelIdeal Cert.KernelIdeal.Gen Cert.KernelIdeal.HostStages Cert.KernelIdeal.HostRead
open Idealize.ShloMosaic Idealize.ShloMosaic.TcCoe Idealize.SL.Sem Idealize.ShloMosaic.ValueIdx Cert.GaussSum
open Idealize.ShloMosaic.Pipeline (Dat)

variable (m : (ℓ : Loc nD τ sig) → Buf (Elt Ideal) ℓ) (ρ : Dev nD → PrngReg)

/-- The result array as one function of the argument arrays as launched. -/
def result (c : Dev nD) : S524288x32.Idx → EReal := fun i =>
  GMulAt (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

theorem zero2 : (![0, 0] : Fin 2 → Nat) = fun _ => 0 := funext fun a => by fin_cases a <;> rfl
theorem zero3 : (![0, 0, 0] : Fin 3 → Nat) = fun _ => 0 := funext fun a => by fin_cases a <;> rfl

/-- The three index maps over the grid: on the row axis the block number is the point's position, on every other axis
    it is zero. -/
theorem index_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- One element of one point's block. If the feature block `v5` and the distance block `v0` are rows
    `2048·tv + p` of two arrays that read, index by index, as the gathered features and the masked distances of the
    arguments, the body's value at `(p, f)` is `GMulAt` at query `2048·tv + p`. -/
theorem point_eq (x0 : SQ3.Idx → EReal) (x1 x2 : SG3.Idx → EReal) (x3 : SG32.Idx → EReal) (x4 : SQ8.Idx → BitVec 32)
    (A0 : S524288x8x32.Idx → EReal) (A1 : S524288x8.Idx → EReal)
    (hA0 : ∀ (n : Fin 524288) (k : Fin 8) (f : Fin 32), A0 (ix3 n k f) = x3 (ix2 (row x4 n k) f))
    (hA1 : ∀ (n : Fin 524288) (k : Fin 8), A1 (ix2 n k)
      = Scalar.select (valid x4 n k) (distMul x0 x1 x2 n (row x4 n k)) (Ideal.ofBits .f32 0x7F800000#32))
    (v0 : Vec Ideal S2048x8 .f32) (v5 : Vec Ideal S2048x8x32 .f32) (n : Fin 524288) (p : Fin 2048) (f : Fin 32)
    (h5 : ∀ k : Fin 8, v5 (ix3 p k f) = A0 (ix3 n k f)) (h0 : ∀ k : Fin 8, v0 (ix2 p k) = A1 (ix2 n k)) :
    k0_pay1 (F := Ideal) v0 v5 (ix2 p f) = GMulAt x0 x1 x2 x3 x4 n f := by
  rw [Cert.GaussSum.Payload.pay_apply v0 v5 p f]
  unfold GMulAt
  refine congrArg₂ (· + ·) rfl (Finset.sum_congr rfl fun k _ => ?_)
  rw [h5 k, h0 k, hA0 n k f, hA1 n k]

/-- WHAT POINT `t` WRITES BACK is block `t` of `result`. -/
theorem flushed_eq (c : Dev nD) (t : Fin cfg0.N) :
    (dats m 0 c).flushed 2 t = ((cfg0.win 2).blk t).view.read (Elt Ideal) (result m c) := by
  rw [Cert.KernelIdeal.Value.flushed2]
  unfold out0_2
  rw [View.canon_unit_zero zero2]
  simp only [View.ld_unit_zero (S := S2048x8) zero2, View.ld_unit_zero (S := S2048x8x32) zero3]
  obtain ⟨e00, e01, e02, e10, e11, e20, e21⟩ := index_facts t
  have ht : t.val < 256 := lt_of_lt_of_eq t.isLt (N_0 : cfg0.N = 256)
  have key : ∀ (p : Fin 2048) (f : Fin 32),
      k0_pay1 (F := Ideal) (iblk m c 1 t) (iblk m c 0 t) (ix2 p f)
        = result m c (((cfg0.win 2).blk t).view.emb (ix2 p f)) := by
    intro p f
    have hn : ((cfg0.win 2).blk t).view.emb (ix2 p f) = ix2 (⟨t.val * 2048 + p.val, by omega⟩ : Fin 524288) f :=
      funext fun a => Fin.ext (by
        match a with
        | ⟨0, _⟩ => show win0_2.index t (0 : Fin 2) * 2048 + 1 * p.val = t.val * 2048 + p.val; omega
        | ⟨1, _⟩ => show win0_2.index t (1 : Fin 2) * 32 + 1 * f.val = f.val; omega)
    rw [hn]
    show _ = GMulAt (m ((c : Thread nD τ).loc main_arg0)) (m ((c : Thread nD τ).loc main_arg1))
      (m ((c : Thread nD τ).loc main_arg2)) (m ((c : Thread nD τ).loc main_arg3)) (m ((c : Thread nD τ).loc main_arg4))
      (⟨t.val * 2048 + p.val, by omega⟩ : Fin 524288) f
    refine point_eq (m ((c : Thread nD τ).loc main_arg0)) (m ((c : Thread nD τ).loc main_arg1))
      (m ((c : Thread nD τ).loc main_arg2)) (m ((c : Thread nD τ).loc main_arg3)) (m ((c : Thread nD τ).loc main_arg4))
      (V m c main_v27) (V m c main_v20)
      (fun n k f => by rw [V_main_v27]; exact feats_at _ _ n k f)
      (fun n k => by rw [V_main_v20]; exact masked_at _ _ _ _ n k)
      (iblk m c 1 t) (iblk m c 0 t) (⟨t.val * 2048 + p.val, by omega⟩ : Fin 524288) p f ?_ ?_
    · intro k
      show V m c main_v27 (((cfg0.win 0).blk t).view.emb (ix3 p k f)) = V m c main_v27 (ix3 _ k f)
      refine congrArg (V m c main_v27) (funext fun a => Fin.ext ?_)
      match a with
      | ⟨0, _⟩ => show win0_0.index t (0 : Fin 3) * 2048 + 1 * p.val = t.val * 2048 + p.val; omega
      | ⟨1, _⟩ => show win0_0.index t (1 : Fin 3) * 8 + 1 * k.val = k.val; omega
      | ⟨2, _⟩ => show win0_0.index t (2 : Fin 3) * 32 + 1 * f.val = f.val; omega
    · intro k
      show V m c main_v20 (((cfg0.win 1).blk t).view.emb (ix2 p k)) = V m c main_v20 (ix2 _ k)
      refine congrArg (V m c main_v20) (funext fun a => Fin.ext ?_)
      match a with
      | ⟨0, _⟩ => show win0_1.index t (0 : Fin 2) * 2048 + 1 * p.val = t.val * 2048 + p.val; omega
      | ⟨1, _⟩ => show win0_1.index t (1 : Fin 2) * 8 + 1 * k.val = k.val; omega
  funext j
  show k0_pay1 (F := Ideal) (iblk m c 1 t) (iblk m c 0 t) j = result m c (((cfg0.win 2).blk t).view.emb j)
  rw [eq_ix2 j]
  exact key (j 0) (j 1)

/-- An index of the result array is in point `t`'s block iff each coordinate is in the block's range on its axis. -/
theorem mem_block (t : Fin cfg0.N) (i : S524288x32.Idx) :
    i ∈ ((cfg0.win 2).blk t).view.set ↔ ∀ a : Fin 2,
      win0_2.index t a * S2048x32.size a ≤ (i a).val ∧ (i a).val < win0_2.index t a * S2048x32.size a + S2048x32.size a := by
  show i ∈ ((View.whole main_v28).slice (win0_2.rect t)).set ↔ _
  rw [View.set_slice_whole, Rect.mem_set_unit]
  exact Iff.rfl

/-- Every index of the result array is in the block of the point numbered by its row divided by 2048. -/
theorem cover (i : S524288x32.Idx) :
    ∃ t : Fin cfg0.N, (cfg0.win 2).flush t = true ∧ i ∈ ((cfg0.win 2).blk t).view.set := by
  have hi0 : (i 0).val < 524288 := (i 0).isLt
  have hi1 : (i 1).val < 32 := (i 1).isLt
  have hN : cfg0.N = 256 := N_0
  let t : Fin cfg0.N := ⟨(i 0).val / 2048, lt_of_lt_of_eq (by omega : (i 0).val / 2048 < 256) hN.symm⟩
  obtain ⟨-, -, -, -, -, e20, e21⟩ := index_facts t
  have tv : t.val = (i 0).val / 2048 := rfl
  refine ⟨t, flush0_2 t, ?_⟩
  rw [mem_block]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 32 ≤ (i 1).val ∧ (i 1).val < win0_2.index t (1 : Fin 2) * 32 + 32
    omega

/-- THE RESULT ARRAY after the run is `result`. -/
theorem final (c : Dev nD) : (dats m 0 c).arrAt 2 cfg0.N = result m c :=
  (dats m 0 c).arrAt_eq_of_cover 2 (result m c) (fun t _ => flushed_eq m c t) cover

/-- The kernel's run, read: the result buffer ends at `result`, the arguments unchanged. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Blocks

end
-- ==== Proof.RefIsG.lean ====
/-
  The reference program's result is `G`.

  Read one operation at a time, the reference gathers the feature, mean and log-covariance rows at the normalised
  neighbour indices, forms `Σ_d (coords - mean)² / exp(log_cov)` per neighbour slot, the weight `exp(-½ · that)`
  replaced by zero at the sentinel index, and sums `feature · weight` over the eight slots: index by index, the
  function `G` of the specification. Nothing here needs the arguments to be finite.
-/
import proofs.«104667_j52355651338845_2_alg».proof.Proof.Gen.ReferenceIdeal.Read
import proofs.«104667_j52355651338845_2_alg».proof.Proof.Spec
import proofs.«104667_j52355651338845_2_alg».proof.Proof.LibGatherRows
import Idealize.ShloMosaic.Lib.ValueIdx

noncomputable section

open scoped BigOperators

namespace Cert.GaussSum.Ref

open Cert.ReferenceIdeal Cert.ReferenceIdeal.Gen Cert.ReferenceIdeal.Read
open Idealize.ShloMosaic Idealize.ShloMosaic.ValueIdx Idealize.ShloMosaic.GatherRows Cert.GaussSum

/-! ## The three arrays of start indices: the normalised neighbour index, at `[n, k, 0]` -/

theorem starts5_at (x4 : (⟨S524288x8, .i32⟩ : BufTy).Contents (Elt Ideal)) (n : Fin 524288) (k : Fin 8) (u : Fin 1) :
    val_main_v5 (F := Ideal) x4 (ix3 n k u) = wrap (x4 (ix2 n k)) := by
  have e : idx_main_v5 (ix3 n k u) = ix2 n k :=
    funext fun a => Fin.ext (by match a with | ⟨0, _⟩ => rfl | ⟨1, _⟩ => rfl)
  rw [val_main_v5_apply, e]
  rfl

theorem starts12_at (x4 : (⟨S524288x8, .i32⟩ : BufTy).Contents (Elt Ideal)) (n : Fin 524288) (k : Fin 8) (u : Fin 1) :
    val_main_v12 (F := Ideal) x4 (ix3 n k u) = wrap (x4 (ix2 n k)) := by
  have e : idx_main_v12 (ix3 n k u) = ix2 n k :=
    funext fun a => Fin.ext (by match a with | ⟨0, _⟩ => rfl | ⟨1, _⟩ => rfl)
  rw [val_main_v12_apply, e]
  rfl

theorem starts21_at (x4 : (⟨S524288x8, .i32⟩ : BufTy).Contents (Elt Ideal)) (n : Fin 524288) (k : Fin 8) (u : Fin 1) :
    val_main_v21 (F := Ideal) x4 (ix3 n k u) = wrap (x4 (ix2 n k)) := by
  have e : idx_main_v21 (ix3 n k u) = ix2 n k :=
    funext fun a => Fin.ext (by match a with | ⟨0, _⟩ => rfl | ⟨1, _⟩ => rfl)
  rw [val_main_v21_apply, e]
  rfl

/-! ## The three gathers: the named row's entry -/

theorem feats_at (x3 : (⟨S500000x32, .f32⟩ : BufTy).Contents (Elt Ideal)) (x4 : (⟨S524288x8, .i32⟩ : BufTy).Contents (Elt Ideal))
    (n : Fin 524288) (k : Fin 8) (f : Fin 32) :
    val_main_v6 (F := Ideal) x3 x4 (ix3 n k f) = x3 (ix2 (row x4 n k) f) := by
  unfold val_main_v6
  refine gather_rows_apply_of_eq (N := 500000) (W := 32) (R := 524288) (C := 8) (by decide)
    gather_S500000x32_S524288x8x1_S524288x8x32_2_0_n_n_0_2_132_wf x3 (val_main_v5 (F := Ideal) x4) (ix3 n k f)
    (row x4 n k) f ?_ rfl
  have e : rowsIdx (ix3 n k f) = ix3 n k (0 : Fin 1) :=
    funext fun a => Fin.ext (by match a with | ⟨0, _⟩ => rfl | ⟨1, _⟩ => rfl | ⟨2, _⟩ => rfl)
  rw [e, starts5_at]
  rfl

theorem logcov_at (x2 : (⟨S500000x3, .f32⟩ : BufTy).Contents (Elt Ideal)) (x4 : (⟨S524288x8, .i32⟩ : BufTy).Contents (Elt Ideal))
    (n : Fin 524288) (k : Fin 8) (d : Fin 3) :
    val_main_v13 (F := Ideal) x2 x4 (ix3 n k d) = x2 (ix2 (row x4 n k) d) := by
  unfold val_main_v13
  refine gather_rows_apply_of_eq (N := 500000) (W := 3) (R := 524288) (C := 8) (by decide)
    gather_S500000x3_S524288x8x1_S524288x8x3_2_0_n_n_0_2_13_wf x2 (val_main_v12 (F := Ideal) x4) (ix3 n k d)
    (row x4 n k) d ?_ rfl
  have e : rowsIdx (ix3 n k d) = ix3 n k (0 : Fin 1) :=
    funext fun a => Fin.ext (by match a with | ⟨0, _⟩ => rfl | ⟨1, _⟩ => rfl | ⟨2, _⟩ => rfl)
  rw [e, starts12_at]
  rfl

theorem means_at (x1 : (⟨S500000x3, .f32⟩ : BufTy).Contents (Elt Ideal)) (x4 : (⟨S524288x8, .i32⟩ : BufTy).Contents (Elt Ideal))
    (n : Fin 524288) (k : Fin 8) (d : Fin 3) :
    val_main_v22 (F := Ideal) x1 x4 (ix3 n k d) = x1 (ix2 (row x4 n k) d) := by
  unfold val_main_v22
  refine gather_rows_apply_of_eq (N := 500000) (W := 3) (R := 524288) (C := 8) (by decide)
    gather_S500000x3_S524288x8x1_S524288x8x3_2_0_n_n_0_2_13_wf x1 (val_main_v21 (F := Ideal) x4) (ix3 n k d)
    (row x4 n k) d ?_ rfl
  have e : rowsIdx (ix3 n k d) = ix3 n k (0 : Fin 1) :=
    funext fun a => Fin.ext (by match a with | ⟨0, _⟩ => rfl | ⟨1, _⟩ => rfl | ⟨2, _⟩ => rfl)
  rw [e, starts21_at]
  rfl

/-! ## The distance and the weight of one neighbour slot -/

/-- The query point's coordinate `d`, broadcast along the eight slots. -/
theorem coords_at (x0 : (⟨S524288x3, .f32⟩ : BufTy).Contents (Elt Ideal)) (n : Fin 524288) (k : Fin 8) (d : Fin 3) :
    val_main_v23 (F := Ideal) x0 (ix3 n k d) = x0 (ix2 n d) := by
  have e23 : idx_main_v23 (ix3 n k d) = ix3 n (0 : Fin 1) d :=
    funext fun a => Fin.ext (by match a with | ⟨0, _⟩ => rfl | ⟨1, _⟩ => rfl | ⟨2, _⟩ => rfl)
  have e15 : idx_main_v15 (ix3 n (0 : Fin 1) d) = ix2 n d :=
    funext fun a => Fin.ext (by match a with | ⟨0, _⟩ => rfl | ⟨1, _⟩ => rfl)
  rw [val_main_v23_apply, e23, val_main_v15_apply, e15]

/-- One term of the distance. -/
theorem term_at (x0 : (⟨S524288x3, .f32⟩ : BufTy).Contents (Elt Ideal)) (x1 x2 : (⟨S500000x3, .f32⟩ : BufTy).Contents (Elt Ideal))
    (x4 : (⟨S524288x8, .i32⟩ : BufTy).Contents (Elt Ideal)) (n : Fin 524288) (k : Fin 8) (d : Fin 3) :
    val_main_v26 (F := Ideal) x0 x1 x2 x4 (ix3 n k d)
      = Ideal.div ((x0 (ix2 n d) - x1 (ix2 (row x4 n k) d)) * (x0 (ix2 n d) - x1 (ix2 (row x4 n k) d)))
          (Ideal.exp (x2 (ix2 (row x4 n k) d))) := by
  rw [val_main_v26_apply, val_main_v25_apply, val_main_v24_apply, val_main_v14_apply, coords_at, means_at, logcov_at]
  rfl

/-- The squared distance of query `n` to the row its slot `k` names. -/
theorem dist_at (x0 : (⟨S524288x3, .f32⟩ : BufTy).Contents (Elt Ideal)) (x1 x2 : (⟨S500000x3, .f32⟩ : BufTy).Contents (Elt Ideal))
    (x4 : (⟨S524288x8, .i32⟩ : BufTy).Contents (Elt Ideal)) (n : Fin 524288) (k : Fin 8) :
    val_main_v27 (F := Ideal) x0 x1 x2 x4 (ix2 n k) = distDiv x0 x1 x2 n (row x4 n k) := by
  rw [val_main_v27_apply]
  unfold distDiv
  refine congrArg₂ (· + ·) rfl (Finset.sum_congr rfl fun d _ => ?_)
  have e : idx_main_v27 (ix2 n k) d = ix3 n k d :=
    funext fun a => Fin.ext (by match a with | ⟨0, _⟩ => rfl | ⟨1, _⟩ => rfl | ⟨2, _⟩ => rfl)
  rw [e, term_at]

/-- The weight of slot `k` of query `n`. -/
theorem weight_at (x0 : (⟨S524288x3, .f32⟩ : BufTy).Contents (Elt Ideal)) (x1 x2 : (⟨S500000x3, .f32⟩ : BufTy).Contents (Elt Ideal))
    (x4 : (⟨S524288x8, .i32⟩ : BufTy).Contents (Elt Ideal)) (n : Fin 524288) (k : Fin 8) :
    val_main_v34 (F := Ideal) x0 x1 x2 x4 (ix2 n k)
      = Scalar.select (valid x4 n k)
          (Ideal.exp (Ideal.ofBits .f32 0xBF000000#32 * distDiv x0 x1 x2 n (row x4 n k)))
          (Ideal.ofBits .f32 0x00000000#32) := by
  rw [val_main_v34_apply, val_main_v30_apply, val_main_v29_apply, dist_at]
  rfl

/-! ## The result -/

theorem result_eq_G (x0 : (⟨S524288x3, .f32⟩ : BufTy).Contents (Elt Ideal)) (x1 x2 : (⟨S500000x3, .f32⟩ : BufTy).Contents (Elt Ideal))
    (x3 : (⟨S500000x32, .f32⟩ : BufTy).Contents (Elt Ideal)) (x4 : (⟨S524288x8, .i32⟩ : BufTy).Contents (Elt Ideal)) :
    val_main_v38 (F := Ideal) x0 x1 x2 x3 x4 = G x0 x1 x2 x3 x4 := by
  funext i
  obtain ⟨n, f, rfl⟩ : ∃ (n : Fin 524288) (f : Fin 32), i = ix2 n f := ⟨i 0, i 1, eq_ix2 i⟩
  show _ = GAt x0 x1 x2 x3 x4 n f
  rw [val_main_v38_apply]
  unfold GAt
  refine congrArg₂ (· + ·) rfl (Finset.sum_congr rfl fun k _ => ?_)
  have e38 : idx_main_v38 (ix2 n f) k = ix3 n k f :=
    funext fun a => Fin.ext (by match a with | ⟨0, _⟩ => rfl | ⟨1, _⟩ => rfl | ⟨2, _⟩ => rfl)
  have e36 : idx_main_v36 (ix3 n k f) = ix3 n k (0 : Fin 1) :=
    funext fun a => Fin.ext (by match a with | ⟨0, _⟩ => rfl | ⟨1, _⟩ => rfl | ⟨2, _⟩ => rfl)
  have e35 : idx_main_v35 (ix3 n k (0 : Fin 1)) = ix2 n k :=
    funext fun a => Fin.ext (by match a with | ⟨0, _⟩ => rfl | ⟨1, _⟩ => rfl)
  rw [e38, val_main_v37_apply, feats_at, val_main_v36_apply, e36, val_main_v35_apply, e35, weight_at]
  rfl

end Cert.GaussSum.Ref

end
-- ==== Proof.Finite.lean ====
import proofs.«104667_j52355651338845_2_alg».proof.Defs
import Idealize.ShloMosaic.Lib.ReduceAll
import Idealize.ShloMosaic.Lib.ValueIdx

/-!
# The precondition makes every log-covariance a real number

The precondition is the conjunction, over the four float arguments, of "every entry `x` has `|x| < +∞`". Read over the
extended reals, `|x| = max x (-x)`, and `max x (-x) < ⊤` excludes both infinities: `x` is then the image of a real. This
module reads that off for the third float argument (the log-covariances).
-/

noncomputable section

namespace Cert.GaussSum.Finite

open Idealize.ShloMosaic Idealize.ShloMosaic.ValueIdx

/-- The rank-0 shape has one index. -/
instance : Subsingleton Cert.Pre_finite_inputs.S_.Idx := ⟨fun a b => funext fun d => d.elim0⟩

/-- An extended real whose absolute value `max x (-x)` compares below the f32 pattern of `+∞` is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | top => simp at h
  | coe r => exact ⟨r, rfl⟩

/-- The precondition over four float arrays and the integer array, read at one entry of the third float array: the
    conjunction's third conjunct is "all entries of `x2` have `|x| < +∞`", so that entry is a real number. -/
theorem x2_real_of_fn [Cert.Pre_finite_inputs.Facts]
    (x0 : FVec Ideal Cert.Pre_finite_inputs.S524288x3 .f32) (x1 x2 : FVec Ideal Cert.Pre_finite_inputs.S500000x3 .f32)
    (x3 : FVec Ideal Cert.Pre_finite_inputs.S500000x32 .f32) (x4 : IVec Cert.Pre_finite_inputs.S524288x8 32)
    (h : Cert.Pre_finite_inputs.fn (F := Ideal) x0 x1 x2 x3 x4 = fun _ => 1#1)
    (j : Cert.Pre_finite_inputs.S500000x3.Idx) : ∃ r : ℝ, x2 j = (r : EReal) := by
  have h0 := congrFun h ix0
  dsimp only [Cert.Pre_finite_inputs.fn, Cert.Pre_finite_inputs.fn_part1] at h0
  -- the result is ((c0 ∧ c1) ∧ c2) ∧ c3 with ck the "all entries finite" bit of the k-th float array: take c2
  have h012 := (IntOp.andi_eq_one.1 h0).1
  have h2 := (IntOp.andi_eq_one.1 h012).2
  -- an "all" that is 1 is 1 at every entry
  have he := Host.reduce_andi_all _ _ _ _ ix0 h2 j
  exact real_of_abs_lt_inf (x2 j) he

/-- Under the certificate's precondition every log-covariance (an entry of the third argument array) is a real number,
    on every device. -/
theorem log_covs_real [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (j : Cert.KernelIdeal.S500000x3.Idx) :
    ∃ r : ℝ, m ((c.tc : Thread Cert.KernelIdeal.nD Cert.KernelIdeal.τ).loc Cert.KernelIdeal.main_arg2) j = (r : EReal) :=
  x2_real_of_fn _ _ _ _ _ (h c) j

end Cert.GaussSum.Finite

end
-- ==== Proof.lean ====
/-
  The Gaussian-weighted neighbour sum: the Pallas kernel against its jnp reference, over the extended reals.

  Both programs compute, for each of 524288 query points `n` and each of 32 features `f`,
      Σ_{k<8} feats[row(n,k), f] · w(n,k),
  where `row(n,k)` is the table row that the neighbour index `idx[n,k]` names and `w(n,k)` is `exp(-½ · d(n,k))` of the
  squared Mahalanobis distance `d(n,k) = Σ_{j<3} (coords[n,j] - means[row,j])² / exp(log_covs[row,j])`, or `0` when the
  index is the sentinel `-1`.

  The reference spells exactly this. The kernel's program differs in three ways, none of which changes the value:
  * it packs the means and `exp(-log_covs)` into one six-column table, gathers the packed rows once and cuts them
    in two — a gather of a concatenation read at an index is the gather of the part the column falls in;
  * it multiplies by `exp(-log_cov)` where the reference divides by `exp(log_cov)` — equal because the precondition makes
    every `log_cov` a real number, so that `exp(-c) = (exp c)⁻¹` is a real and the quotient is the product with it;
  * it masks the DISTANCE to `+∞` before the exponential where the reference masks the WEIGHT to `0` after it — equal
    because `-½ · (+∞) = -∞` and `exp(-∞) = 0`;
  and it computes the weighted sum over the eight neighbours in a kernel region, 2048 query rows per grid point,
  whose 256 blocks tile the result.

  The modules: `Spec` (the function, the two laws), `LibGatherRows` (a row gather read at an index), `RefIsG` (the
  reference's last stage is the function), `HostStages` / `HostRead` (the kernel's two staged arrays as functions of
  the arguments, read at an index), `Payload` (the region body's value at one element), `Blocks` (from the blocks to
  the whole result array), `Finite` (the precondition makes the log-covariances real), and the claims below.
-/
import proofs.«104667_j52355651338845_2_alg».proof.Defs
import proofs.«104667_j52355651338845_2_alg».proof.Proof.Gen.Kernel
import proofs.«104667_j52355651338845_2_alg».proof.Proof.Gen.Kernel.Skeleton
import proofs.«104667_j52355651338845_2_alg».proof.Proof.Gen.Kernel.Launch
import proofs.«104667_j52355651338845_2_alg».proof.Proof.Gen.Kernel.Points
import proofs.«104667_j52355651338845_2_alg».proof.Proof.Gen.Kernel.Frame
import proofs.«104667_j52355651338845_2_alg».proof.Proof.Gen.KernelIdeal
import proofs.«104667_j52355651338845_2_alg».proof.Proof.Gen.KernelIdeal.Skeleton
import proofs.«104667_j52355651338845_2_alg».proof.Proof.Gen.KernelIdeal.Launch
import proofs.«104667_j52355651338845_2_alg».proof.Proof.Gen.KernelIdeal.Points
import proofs.«104667_j52355651338845_2_alg».proof.Proof.Gen.KernelIdeal.Frame
import proofs.«104667_j52355651338845_2_alg».proof.Proof.Gen.ReferenceIdeal
import proofs.«104667_j52355651338845_2_alg».proof.Proof.Gen.Pre_finite_inputs
import proofs.«104667_j52355651338845_2_alg».proof.Proof.Gen.KernelIdeal.Value
import proofs.«104667_j52355651338845_2_alg».proof.Proof.Gen.ReferenceIdeal.Run
import proofs.«104667_j52355651338845_2_alg».proof.Proof.Gen.ReferenceIdeal.Read
import proofs.«104667_j52355651338845_2_alg».proof.Proof.Blocks
import proofs.«104667_j52355651338845_2_alg».proof.Proof.RefIsG
import proofs.«104667_j52355651338845_2_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the extended reals. -/
theorem preserves : Cert.preserves_Kernel_KernelIdeal := trivial

/-- From memories agreeing on the arguments, the kernel's result array is `GMulAt` of them (the blocks, the body's
    value, the staged arrays read at an index) and the reference's is `GAt` (its stages read one by one); the two are
    one function because the precondition makes every log-covariance a real number. -/
theorem algebraic : Cert.algebraic_KernelIdeal_ReferenceIdeal := by
  intro m ρ m' ρ' hpre hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v38_eq _ _ _ _ _).trans ?_
  rw [Cert.GaussSum.Ref.result_eq_G, (hagree c).1, (hagree c).2.1, (hagree c).2.2.1, (hagree c).2.2.2.1,
    (hagree c).2.2.2.2]
  funext i
  exact (Cert.GaussSum.GMulAt_eq_GAt _ _ _ _ _ (fun j => Cert.GaussSum.Finite.log_covs_real m hpre c j) (i 0) (i 1)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
